-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x1 : Shape := ⟨2, ![600000, 1]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S600000x1 .f32) (main_arg3 : FVec F S256x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000x1 : Shape := ⟨2, ![600000, 1]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x128 : Shape := ⟨2, ![600000, 128]⟩
abbrev S1x128 : Shape := ⟨2, ![1, 128]⟩
abbrev S6000x128 : Shape := ⟨2, ![6000, 128]⟩
abbrev S6000x1 : Shape := ⟨2, ![6000, 1]⟩
abbrev S10000x128 : Shape := ⟨2, ![10000, 128]⟩

abbrev nBuf : Space → Nat
  | .hbm => 47
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x1, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S1x128, .f32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S1x128, .f32⟩
  | .hbm, ⟨46, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x1, .f32⟩
  | .local _ .vmem, ⟨5, _⟩ => ⟨S6000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S6000x128, .f32⟩
  | .local _ .vmem, ⟨12, _⟩ => ⟨S6000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  inb_S6000x1_S6000x1_0_0 : ∀ a, (![0, 0] : Fin 2 → Nat) a + S6000x1.size a ≤ S6000x1.size a
  h_S6000x1 : 0 < S6000x1.numel
  broadcasts_S6000x1_S6000x128 : S6000x1.Broadcasts S6000x128
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x1.size a ≤ S600000x1.size a
  hwx0_2 : ∀ i : grid0.Coords, EltTy.bits .f32 = 32 ∨ (Rect.block (s := S600000x1) S6000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6000x128.size a ≤ S600000x128.size a
  hwx0_8 : ∀ i : grid0.Coords, EltTy.bits .f32 = 32 ∨ (Rect.block (s := S600000x128) S6000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S50000x128.size a
  hwx1_7 : ∀ i : grid1.Coords, EltTy.bits .f32 = 32 ∨ (Rect.block (s := S50000x128) S10000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v10) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S6000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x1 : Shape := ⟨2, ![600000, 1]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x128 : Shape := ⟨2, ![600000, 128]⟩
abbrev S600000x256 : Shape := ⟨2, ![600000, 256]⟩
abbrev S1x128 : Shape := ⟨2, ![1, 128]⟩
abbrev S50000x256 : Shape := ⟨2, ![50000, 256]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x1, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x256, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S50000x256, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run with its two results named.

  The program is four stretches in order: host operations (index preparation, the two row gathers, the weight
  halves and bias rows), the edge kernel over its 100 grid points, host operations (the scatter-add of the edge
  features into node rows, the second weight halves and bias rows), the node kernel over its 5 grid points.
  Every weakly fair execution terminates without a fault, and in the final state every unscoped buffer holds the
  contents at the last boundary (`W4`): in particular the two result buffers — the node output `main_v30` and the
  edge features `main_v22` — hold `W4` at their references, and the eleven arguments are unchanged.
-/
import proofs.«127116_j86620900426032_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two results at the last
    boundary's contents and the arguments as launched. -/
theorem run_results : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Hand

end
-- ==== Proof.KDots.lean ====
/-
  The kernels' matrix products at the extended reals, read one entry at a time.

  Both kernel bodies multiply a block of rows (6000 edge rows, 10000 node rows) by a 128 × 128 weight matrix into
  a zero accumulator. At the extended reals such a product's entry `(p, q)` is the plain sum over the
  contracted axis `∑ k, l (p, k) * r (k, q)`: the accumulator's zero drops out and the contraction index runs
  over `Fin 128`.
-/
import proofs.«127116_j86620900426032_2_alg».proof.Proof.Gen.KernelIdeal
import Idealize.ShloMosaic.Lib.ValueIdx
import Idealize.ShloMosaic.PureOps.Ideal.Laws

noncomputable section

namespace Cert.KernelIdeal.Hand

open Cert.KernelIdeal Idealize.ShloMosaic Idealize.ShloMosaic.ValueIdx

/-! ## The 6000 × 128 by 128 × 128 product -/

abbrev D6 := dot_S6000x128_S128x128_S6000x128_1_0_0_1_n_n

theorem lhs6_0 (i : S6000x128.Idx) (q : D6.contr.Idx) : (D6.lhsIdx i q 0).val = (i 0).val := by
  unfold DotDims.lhsIdx
  rw [dif_neg (show ¬(0 : Fin S6000x128.rank) ∈ D6.lhsBatch by decide), dif_pos (show (0 : Fin S6000x128.rank) ∈ D6.lhsNonContracting by decide)]
  rfl
theorem lhs6_1 (i : S6000x128.Idx) (q : D6.contr.Idx) : (D6.lhsIdx i q 1).val = (q ⟨0, by decide⟩).val :=
  D6.lhsIdx_val_of_single rfl i q
theorem rhs6_0 (i : S6000x128.Idx) (q : D6.contr.Idx) : (D6.rhsIdx i q 0).val = (q ⟨0, by decide⟩).val :=
  D6.rhsIdx_val_of_single rfl i q
theorem rhs6_1 (i : S6000x128.Idx) (q : D6.contr.Idx) : (D6.rhsIdx i q 1).val = (i 1).val := by
  unfold DotDims.rhsIdx
  rw [dif_neg (show ¬(1 : Fin S128x128.rank) ∈ D6.rhsBatch by decide), dif_pos (show (1 : Fin S128x128.rank) ∈ D6.rhsNonContracting by decide)]
  rfl

/-- Entry `(p, q)` of the product into a zero accumulator is the row-by-column sum `∑ k, l p k * r k q`. -/
theorem matmul6_apply {φ₁ φ₂ : FTy} (l : FVec Ideal S6000x128 φ₁) (r : FVec Ideal S128x128 φ₂) (p : Fin 6000) (q : Fin 128) :
    matmul D6 none l r (constant (F := Ideal) S6000x128 .f32 0x00000000#32) (ix2 p q) = ∑ k : Fin 128, l (ix2 p k) * r (ix2 k q) := by
  show FloatOps.matmul D6 none l r (constant (F := Ideal) S6000x128 .f32 0x00000000#32) (ix2 p q) = _
  rw [Ideal.matmul_constant_zero_apply, ← Equiv.sum_comp (ValueIdx.contrEquiv1 D6 128 rfl rfl).symm]
  refine Finset.sum_congr rfl fun k _ => ?_
  have hk := ValueIdx.contrEquiv1_symm_val D6 128 rfl rfl k
  have el : D6.lhsIdx (ix2 p q) ((ValueIdx.contrEquiv1 D6 128 rfl rfl).symm k) = ix2 p k := funext fun a => Fin.ext (by
    match a with
    | ⟨0, _⟩ => exact lhs6_0 _ _
    | ⟨1, _⟩ => exact (lhs6_1 _ _).trans hk)
  have er : D6.rhsIdx (ix2 p q) ((ValueIdx.contrEquiv1 D6 128 rfl rfl).symm k) = ix2 k q := funext fun a => Fin.ext (by
    match a with
    | ⟨0, _⟩ => exact (rhs6_0 _ _).trans hk
    | ⟨1, _⟩ => exact rhs6_1 _ _)
  rw [el, er]

/-! ## The 10000 × 128 by 128 × 128 product -/

abbrev D10 := dot_S10000x128_S128x128_S10000x128_1_0_0_1_n_n

theorem lhs10_0 (i : S10000x128.Idx) (q : D10.contr.Idx) : (D10.lhsIdx i q 0).val = (i 0).val := by
  unfold DotDims.lhsIdx
  rw [dif_neg (show ¬(0 : Fin S10000x128.rank) ∈ D10.lhsBatch by decide), dif_pos (show (0 : Fin S10000x128.rank) ∈ D10.lhsNonContracting by decide)]
  rfl
theorem lhs10_1 (i : S10000x128.Idx) (q : D10.contr.Idx) : (D10.lhsIdx i q 1).val = (q ⟨0, by decide⟩).val :=
  D10.lhsIdx_val_of_single rfl i q
theorem rhs10_0 (i : S10000x128.Idx) (q : D10.contr.Idx) : (D10.rhsIdx i q 0).val = (q ⟨0, by decide⟩).val :=
  D10.rhsIdx_val_of_single rfl i q
theorem rhs10_1 (i : S10000x128.Idx) (q : D10.contr.Idx) : (D10.rhsIdx i q 1).val = (i 1).val := by
  unfold DotDims.rhsIdx
  rw [dif_neg (show ¬(1 : Fin S128x128.rank) ∈ D10.rhsBatch by decide), dif_pos (show (1 : Fin S128x128.rank) ∈ D10.rhsNonContracting by decide)]
  rfl

/-- Entry `(p, q)` of the product into a zero accumulator is the row-by-column sum `∑ k, l p k * r k q`. -/
theorem matmul10_apply {φ₁ φ₂ : FTy} (l : FVec Ideal S10000x128 φ₁) (r : FVec Ideal S128x128 φ₂) (p : Fin 10000) (q : Fin 128) :
    matmul D10 none l r (constant (F := Ideal) S10000x128 .f32 0x00000000#32) (ix2 p q) = ∑ k : Fin 128, l (ix2 p k) * r (ix2 k q) := by
  show FloatOps.matmul D10 none l r (constant (F := Ideal) S10000x128 .f32 0x00000000#32) (ix2 p q) = _
  rw [Ideal.matmul_constant_zero_apply, ← Equiv.sum_comp (ValueIdx.contrEquiv1 D10 128 rfl rfl).symm]
  refine Finset.sum_congr rfl fun k _ => ?_
  have hk := ValueIdx.contrEquiv1_symm_val D10 128 rfl rfl k
  have el : D10.lhsIdx (ix2 p q) ((ValueIdx.contrEquiv1 D10 128 rfl rfl).symm k) = ix2 p k := funext fun a => Fin.ext (by
    match a with
    | ⟨0, _⟩ => exact lhs10_0 _ _
    | ⟨1, _⟩ => exact (lhs10_1 _ _).trans hk)
  have er : D10.rhsIdx (ix2 p q) ((ValueIdx.contrEquiv1 D10 128 rfl rfl).symm k) = ix2 k q := funext fun a => Fin.ext (by
    match a with
    | ⟨0, _⟩ => exact (rhs10_0 _ _).trans hk
    | ⟨1, _⟩ => exact rhs10_1 _ _)
  rw [el, er]

end Cert.KernelIdeal.Hand

end
-- ==== Proof.RowSpec.lean ====
/-
  The two multilayer perceptrons of the message-passing step, one output ROW at a time, on the extended reals.

  A row of either perceptron is computed from two input rows `a b : Fin 128 → EReal` (an edge's two endpoint
  features; a node's own features and its aggregated messages). The first layer multiplies the JOINED row
  `[a, b]` by a `256 × 128` weight matrix; splitting that matrix into its upper half `wa` and its lower half
  `wb`, the product is `a · wa + b · wb` — the sum over the joined axis is the sum over its two halves
  (`sum_join`), which on the extended reals needs only that addition is commutative and associative.
  After the bias and the rectifier `max · 0` comes the second layer (`second`); the edge perceptron rectifies
  again and scales by the edge's mask, the node perceptron adds the node's own features back.
-/
import Mathlib.Data.EReal.Basic
import Mathlib.Algebra.BigOperators.Fin

noncomputable section

namespace Cert.Mlp

open scoped BigOperators

/-- The first layer's unit `k`, rectified: `max (a · wa[:,k] + b · wb[:,k] + b1[k]) 0`. -/
def hidden (a b : Fin 128 → EReal) (wa wb : Fin 128 → Fin 128 → EReal) (b1 : Fin 128 → EReal) (k : Fin 128) : EReal :=
  max (((∑ l : Fin 128, a l * wa l k) + ∑ l : Fin 128, b l * wb l k) + b1 k) 0

/-- The second layer's unit `j`: `h · w2[:,j] + b2[j]`. -/
def second (h : Fin 128 → EReal) (w2 : Fin 128 → Fin 128 → EReal) (b2 : Fin 128 → EReal) (j : Fin 128) : EReal :=
  (∑ k : Fin 128, h k * w2 k j) + b2 j

/-- One entry of an edge's feature row: the second layer rectified, times the edge's mask. -/
def edgeOut (a b : Fin 128 → EReal) (wa wb : Fin 128 → Fin 128 → EReal) (b1 : Fin 128 → EReal)
    (w2 : Fin 128 → Fin 128 → EReal) (b2 : Fin 128 → EReal) (mk : EReal) (j : Fin 128) : EReal :=
  max (second (hidden a b wa wb b1) w2 b2 j) 0 * mk

/-- One entry of a node's output row: the second layer plus the node's own feature (the residual). -/
def nodeOut (a b : Fin 128 → EReal) (wa wb : Fin 128 → Fin 128 → EReal) (b1 : Fin 128 → EReal)
    (w2 : Fin 128 → Fin 128 → EReal) (b2 : Fin 128 → EReal) (j : Fin 128) : EReal :=
  second (hidden a b wa wb b1) w2 b2 j + a j

/-- A sum over the joined axis of extent 256 is the sum over its first 128 positions plus the sum over its last 128. -/
theorem sum_join (f : Fin 256 → EReal) :
    ∑ l : Fin 256, f l = (∑ l : Fin 128, f ⟨l.val, by omega⟩) + ∑ l : Fin 128, f ⟨128 + l.val, by omega⟩ :=
  Fin.sum_univ_add (a := 128) (b := 128) f

end Cert.Mlp

end
-- ==== Proof.LibColumn.lean ====
/-
  Two layout operations read at an index given by coordinates: a vector made a one-column matrix, and a
  one-column matrix spread over the columns of a wider one.  Together they turn a per-row quantity (a scale,
  a mean, a variance) into a matrix that is constant along each row.
-/
import Idealize.ShloMosaic.Lib.ValueLayout

namespace Cert.Layer.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Column
-- ==== Proof.KPay.lean ====
/-
  What each kernel body stores, one entry at a time, at the extended reals.

  The edge body stores `relu (relu (xr · w1r + xc · w1c + b1) · w2 + b2) * mask` and the node body
  `relu (x · w1x + agg · w1a + b1) · w2 + b2 + x`, over a block of rows. A rounding to bf16 before a product is
  the identity on the extended reals, a `[1, 128]` bias row is the same on every row, the `[rows, 1]` mask column
  the same on every column, and the rectifier's zero word denotes `0`. So entry `(p, q)` of the stored block
  is the row function `Mlp.edgeOut` / `Mlp.nodeOut` of row `p` of the two input blocks, at column `q`.
-/
import proofs.«127116_j86620900426032_2_alg».proof.Proof.Gen.KernelIdeal.Skeleton
import proofs.«127116_j86620900426032_2_alg».proof.Proof.KDots
import proofs.«127116_j86620900426032_2_alg».proof.Proof.RowSpec
import proofs.«127116_j86620900426032_2_alg».proof.Proof.LibColumn
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- Entry `(p, q)` of the edge body's stored block: the edge row function of row `p` of the two gathered
    blocks, the two halves of the first weight matrix, the biases' one row and the mask's one column. -/
theorem pay_edge (x0 x3 : Vec Ideal S6000x128 .f32) (x6 x9 : Vec Ideal S128x128 .f32) (x15 : Vec Ideal S1x128 .f32)
    (x22 : Vec Ideal S128x128 .f32) (x25 : Vec Ideal S1x128 .f32) (x31 : Vec Ideal S6000x1 .f32) (p : Fin 6000) (q : Fin 128) :
    k0_pay1 (F := Ideal) x0 x3 x6 x9 x15 x22 x25 x31 (ix2 p q) =
      Mlp.edgeOut (fun l => x0 (ix2 p l)) (fun l => x3 (ix2 p l)) (fun l k => x6 (ix2 l k)) (fun l k => x9 (ix2 l k))
        (fun k => x15 (ix2 (0 : Fin 1) k)) (fun k j => x22 (ix2 k j)) (fun j => x25 (ix2 (0 : Fin 1) j)) (x31 (ix2 p (0 : Fin 1))) q := by
  unfold k0_pay1 Mlp.edgeOut Mlp.second Mlp.hidden
  simp only [mulf_apply, maximumf_apply, addf_apply, broadcast_apply, matmul6_apply, truncf_apply, shapeCast_self,
    broadcastTo_1b_ab_apply, Cert.Layer.Column.broadcastTo_a1_ab_apply, Ideal.ofBits_def, Ideal.ofBits_zero_f32]

/-- Entry `(p, q)` of the node body's stored block: the node row function of row `p` of the feature block and of
    the aggregate block; the residual reads the feature block a second time (`x28`). -/
theorem pay_node (x0 x2 : Vec Ideal S10000x128 .f32) (x5 x8 : Vec Ideal S128x128 .f32) (x14 : Vec Ideal S1x128 .f32)
    (x21 : Vec Ideal S128x128 .f32) (x24 : Vec Ideal S1x128 .f32) (x28 : Vec Ideal S10000x128 .f32) (p : Fin 10000) (q : Fin 128)
    (h28 : x28 = x0) :
    k1_pay1 (F := Ideal) x0 x2 x5 x8 x14 x21 x24 x28 (ix2 p q) =
      Mlp.nodeOut (fun l => x0 (ix2 p l)) (fun l => x2 (ix2 p l)) (fun l k => x5 (ix2 l k)) (fun l k => x8 (ix2 l k))
        (fun k => x14 (ix2 (0 : Fin 1) k)) (fun k j => x21 (ix2 k j)) (fun j => x24 (ix2 (0 : Fin 1) j)) q := by
  subst h28
  unfold k1_pay1 Mlp.nodeOut Mlp.second Mlp.hidden
  simp only [maximumf_apply, addf_apply, broadcast_apply, matmul10_apply, truncf_apply, shapeCast_self,
    broadcastTo_1b_ab_apply, Ideal.ofBits_def, Ideal.ofBits_zero_f32]

end Cert.KernelIdeal.Hand

end
-- ==== Proof.KEntry.lean ====
/-
  Each kernel's result as ONE function of the arrays its region finds, and one entry of one block against it.

  `EdgeK` is the edge-feature array as a function of the eight arrays the edge kernel's windows stage: entry
  `(e, j)` is the edge row function of row `e` of the two gathered arrays and of the mask's row `e`. `NodeK` is the
  node output likewise: entry `(n, j)` is the node row function of row `n` of the features and of the aggregate.
  A block entry `(p, q)` of what the body stores agrees with entry `(e, q)` of the whole function as soon as row
  `p` of each row-blocked input is row `e` of its array and the weights and biases are read whole.
-/
import proofs.«127116_j86620900426032_2_alg».proof.Proof.KPay

noncomputable section

namespace Cert.KernelIdeal.Hand

open Cert.KernelIdeal Cert.KernelIdeal.Gen Idealize.ShloMosaic Idealize.ShloMosaic.ValueIdx

/-- The edge features from the arrays the edge kernel stages: the two gathered row arrays, the mask column, the
    two halves of the first weight matrix, the bias rows and the second weight matrix. -/
def EdgeK (XR XC : S600000x128.Idx → EReal) (MK : S600000x1.Idx → EReal) (W1r W1c : S128x128.Idx → EReal)
    (B1 : S1x128.Idx → EReal) (W2 : S128x128.Idx → EReal) (B2 : S1x128.Idx → EReal) : S600000x128.Idx → EReal :=
  fun i => Mlp.edgeOut (fun l => XR (ix2 (i 0) l)) (fun l => XC (ix2 (i 0) l)) (fun l k => W1r (ix2 l k)) (fun l k => W1c (ix2 l k))
    (fun k => B1 (ix2 (0 : Fin 1) k)) (fun k j => W2 (ix2 k j)) (fun j => B2 (ix2 (0 : Fin 1) j)) (MK (ix2 (i 0) (0 : Fin 1))) (i 1)

/-- The node output from the arrays the node kernel stages: the features, the aggregated messages, the two halves
    of the first weight matrix, the bias rows and the second weight matrix. -/
def NodeK (X AG : S50000x128.Idx → EReal) (W1x W1a : S128x128.Idx → EReal)
    (B1 : S1x128.Idx → EReal) (W2 : S128x128.Idx → EReal) (B2 : S1x128.Idx → EReal) : S50000x128.Idx → EReal :=
  fun i => Mlp.nodeOut (fun l => X (ix2 (i 0) l)) (fun l => AG (ix2 (i 0) l)) (fun l k => W1x (ix2 l k)) (fun l k => W1a (ix2 l k))
    (fun k => B1 (ix2 (0 : Fin 1) k)) (fun k j => W2 (ix2 k j)) (fun j => B2 (ix2 (0 : Fin 1) j)) (i 1)

/-- Entry `j` of the edge body's stored block is entry `i` of `EdgeK` when `j` and `i` have the same column, row
    `j 0` of each row-blocked input is row `i 0` of its array, and the other inputs are their arrays. -/
theorem edge_entry (x0 x1 : Vec Ideal S6000x128 .f32) (x2 : Vec Ideal S6000x1 .f32) (x3 x4 : Vec Ideal S128x128 .f32)
    (x5 : Vec Ideal S1x128 .f32) (x6 : Vec Ideal S128x128 .f32) (x7 : Vec Ideal S1x128 .f32)
    (XR XC : S600000x128.Idx → EReal) (MK : S600000x1.Idx → EReal) (W1r W1c : S128x128.Idx → EReal)
    (B1 : S1x128.Idx → EReal) (W2 : S128x128.Idx → EReal) (B2 : S1x128.Idx → EReal)
    (p : Fin 6000) (q : Fin 128) (e : Fin 600000)
    (h0 : ∀ l : Fin 128, x0 (ix2 p l) = XR (ix2 e l)) (h1 : ∀ l : Fin 128, x1 (ix2 p l) = XC (ix2 e l))
    (h2 : x2 (ix2 p (0 : Fin 1)) = MK (ix2 e (0 : Fin 1)))
    (h3 : x3 = W1r) (h4 : x4 = W1c) (h5 : x5 = B1) (h6 : x6 = W2) (h7 : x7 = B2) :
    k0_pay1 (F := Ideal) x0 x1 x3 x4 x5 x6 x7 x2 (ix2 p q) = EdgeK XR XC MK W1r W1c B1 W2 B2 (ix2 e q) := by
  subst h3 h4 h5 h6 h7
  rw [pay_edge]
  show _ = Mlp.edgeOut (fun l => XR (ix2 e l)) (fun l => XC (ix2 e l)) (fun l k => x3 (ix2 l k)) (fun l k => x4 (ix2 l k))
    (fun k => x5 (ix2 (0 : Fin 1) k)) (fun k j => x6 (ix2 k j)) (fun j => x7 (ix2 (0 : Fin 1) j)) (MK (ix2 e (0 : Fin 1))) q
  rw [funext h0, funext h1, h2]

/-- Entry `j` of the node body's stored block is entry `i` of `NodeK`, under the same reading of the inputs. -/
theorem node_entry (x0 x1 : Vec Ideal S10000x128 .f32) (x2 x3 : Vec Ideal S128x128 .f32)
    (x4 : Vec Ideal S1x128 .f32) (x5 : Vec Ideal S128x128 .f32) (x6 : Vec Ideal S1x128 .f32)
    (X AG : S50000x128.Idx → EReal) (W1x W1a : S128x128.Idx → EReal)
    (B1 : S1x128.Idx → EReal) (W2 : S128x128.Idx → EReal) (B2 : S1x128.Idx → EReal)
    (p : Fin 10000) (q : Fin 128) (n : Fin 50000)
    (h0 : ∀ l : Fin 128, x0 (ix2 p l) = X (ix2 n l)) (h1 : ∀ l : Fin 128, x1 (ix2 p l) = AG (ix2 n l))
    (h2 : x2 = W1x) (h3 : x3 = W1a) (h4 : x4 = B1) (h5 : x5 = W2) (h6 : x6 = B2) :
    k1_pay1 (F := Ideal) x0 x1 x2 x3 x4 x5 x6 x0 (ix2 p q) = NodeK X AG W1x W1a B1 W2 B2 (ix2 n q) := by
  subst h2 h3 h4 h5 h6
  rw [pay_node _ _ _ _ _ _ _ _ _ _ rfl]
  show _ = Mlp.nodeOut (fun l => X (ix2 n l)) (fun l => AG (ix2 n l)) (fun l k => x2 (ix2 l k)) (fun l k => x3 (ix2 l k))
    (fun k => x4 (ix2 (0 : Fin 1) k)) (fun k j => x5 (ix2 k j)) (fun j => x6 (ix2 (0 : Fin 1) j)) q
  rw [funext h0, funext h1]

end Cert.KernelIdeal.Hand

end
-- ==== Proof.KBlocks.lean ====
/-
  From blocks to arrays: each kernel's result array after its region, as one function of the arrays the region finds.

  The edge kernel's grid has 100 points; point `t` stages rows `6000 t … 6000 t + 5999` of the two gathered arrays
  and of the mask, the weights and biases whole, and writes back rows `6000 t … 6000 t + 5999` of the edge
  features. So what point `t` writes back is block `t` of `EdgeK` of the staged arrays (`flushed0`); the 100 blocks
  tile the 600000 rows — row `r` is in the block of point `r / 6000` (`cover0`) — and the array ends holding
  `EdgeK` (`final0`). The node kernel is the same with 5 points of 10000 rows over 50000 rows (`flushed1`,
  `cover1`, `final1`). All of it at ANY contents `V` of the buffers at the region's entry.
-/
import proofs.«127116_j86620900426032_2_alg».proof.Proof.Gen.KernelIdeal.Frame
import proofs.«127116_j86620900426032_2_alg».proof.Proof.KEntry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The edge kernel's region -/

/-- A zero offset on both axes. -/
theorem hz : (![0, 0] : Fin 2 → Nat) = fun _ => 0 := funext fun a => by fin_cases a <;> rfl

/-- The edge kernel's index maps, decided over its grid: the row-blocked windows (the two gathered arrays, the mask, the
    result) are at block row `t`, column block 0; the weights and biases always at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- What point `t` of the edge kernel writes back is block `t` of `EdgeK` of the arrays the region finds. -/
theorem flushed0 (c : Dev nD) (t : Fin cfg0.N) :
    (dat0 V c).flushed 8 t = ((cfg0.win 8).blk t).view.read (Elt Ideal)
      (EdgeK (V c main_v10) (V c main_v17) (V c main_arg2) (V c main_v18) (V c main_v19) (V c main_v20) (V c main_arg5) (V c main_v21)) := by
  show (cfg0.win 8).cut (grid0.coords t) ((dat0 V c).after 8 t) = _
  rw [after0_8]
  unfold out0_8
  rw [View.canon_unit_zero hz]
  simp only [View.ld_unit_zero (S := S6000x128) hz, View.ld_unit_zero (S := S128x128) hz, View.ld_unit_zero (S := S1x128) hz, View.ld_unit_zero (S := S6000x1) hz]
  obtain ⟨a00, a01, a10, a11, a20, a21, a30, a31, a40, a41, a50, a51, a60, a61, a70, a71, a80, a81⟩ := idx0 t
  have ht : t.val < 100 := lt_of_lt_of_eq t.isLt N_0
  funext j
  obtain ⟨p, q, rfl⟩ : ∃ (p : Fin 6000) (q : Fin 128), j = ix2 p q := ⟨j 0, j 1, eq_ix2 j⟩
  have hemb : ((cfg0.win 8).blk t).view.emb (ix2 p q) = ix2 (⟨t.val * 6000 + p.val, by omega⟩ : Fin 600000) q := by
    funext a; apply Fin.ext
    match a with
    | ⟨0, _⟩ => show win0_8.index t (0 : Fin 2) * 6000 + 1 * p.val = t.val * 6000 + p.val; rw [a80]; omega
    | ⟨1, _⟩ => show win0_8.index t (1 : Fin 2) * 128 + 1 * q.val = q.val; rw [a81]; omega
  show k0_pay1 (iblk0 V c 0 t) (iblk0 V c 1 t) (iblk0 V c 3 t) (iblk0 V c 4 t) (iblk0 V c 5 t) (iblk0 V c 6 t) (iblk0 V c 7 t) (iblk0 V c 2 t) (ix2 p q)
    = EdgeK (V c main_v10) (V c main_v17) (V c main_arg2) (V c main_v18) (V c main_v19) (V c main_v20) (V c main_arg5) (V c main_v21) (((cfg0.win 8).blk t).view.emb (ix2 p q))
  rw [hemb]
  refine edge_entry (iblk0 V c 0 t) (iblk0 V c 1 t) (iblk0 V c 2 t) (iblk0 V c 3 t) (iblk0 V c 4 t) (iblk0 V c 5 t) (iblk0 V c 6 t) (iblk0 V c 7 t)
    (V c main_v10) (V c main_v17) (V c main_arg2) (V c main_v18) (V c main_v19) (V c main_v20) (V c main_arg5) (V c main_v21)
    p q ⟨t.val * 6000 + p.val, by omega⟩ ?_ ?_ ?_ ?_ ?_ ?_ ?_ ?_
  · intro l
    show V c main_v10 (((cfg0.win 0).blk t).view.emb (ix2 p l)) = V c main_v10 (ix2 (⟨t.val * 6000 + p.val, by omega⟩ : Fin 600000) l)
    refine congrArg (V c main_v10) (funext fun a => Fin.ext ?_)
    match a with
    | ⟨0, _⟩ => show win0_0.index t (0 : Fin 2) * 6000 + 1 * p.val = t.val * 6000 + p.val; rw [a00]; omega
    | ⟨1, _⟩ => show win0_0.index t (1 : Fin 2) * 128 + 1 * l.val = l.val; rw [a01]; omega
  · intro l
    show V c main_v17 (((cfg0.win 1).blk t).view.emb (ix2 p l)) = V c main_v17 (ix2 (⟨t.val * 6000 + p.val, by omega⟩ : Fin 600000) l)
    refine congrArg (V c main_v17) (funext fun a => Fin.ext ?_)
    match a with
    | ⟨0, _⟩ => show win0_1.index t (0 : Fin 2) * 6000 + 1 * p.val = t.val * 6000 + p.val; rw [a10]; omega
    | ⟨1, _⟩ => show win0_1.index t (1 : Fin 2) * 128 + 1 * l.val = l.val; rw [a11]; omega
  · show V c main_arg2 (((cfg0.win 2).blk t).view.emb (ix2 p (0 : Fin 1))) = V c main_arg2 (ix2 (⟨t.val * 6000 + p.val, by omega⟩ : Fin 600000) (0 : Fin 1))
    refine congrArg (V c main_arg2) (funext fun a => Fin.ext ?_)
    match a with
    | ⟨0, _⟩ => show win0_2.index t (0 : Fin 2) * 6000 + 1 * p.val = t.val * 6000 + p.val; rw [a20]; omega
    | ⟨1, _⟩ => show win0_2.index t (1 : Fin 2) * 1 + 1 * 0 = 0; rw [a21]
  · funext y
    show V c main_v18 (((cfg0.win 3).blk t).view.emb y) = V c main_v18 y
    refine congrArg (V c main_v18) (funext fun a => Fin.ext ?_)
    match a with
    | ⟨0, _⟩ => show win0_3.index t (0 : Fin 2) * 128 + 1 * (y 0).val = (y 0).val; rw [a30]; omega
    | ⟨1, _⟩ => show win0_3.index t (1 : Fin 2) * 128 + 1 * (y 1).val = (y 1).val; rw [a31]; omega
  · funext y
    show V c main_v19 (((cfg0.win 4).blk t).view.emb y) = V c main_v19 y
    refine congrArg (V c main_v19) (funext fun a => Fin.ext ?_)
    match a with
    | ⟨0, _⟩ => show win0_4.index t (0 : Fin 2) * 128 + 1 * (y 0).val = (y 0).val; rw [a40]; omega
    | ⟨1, _⟩ => show win0_4.index t (1 : Fin 2) * 128 + 1 * (y 1).val = (y 1).val; rw [a41]; omega
  · funext y
    show V c main_v20 (((cfg0.win 5).blk t).view.emb y) = V c main_v20 y
    refine congrArg (V c main_v20) (funext fun a => Fin.ext ?_)
    match a with
    | ⟨0, _⟩ => show win0_5.index t (0 : Fin 2) * 1 + 1 * (y 0).val = (y 0).val; rw [a50]; omega
    | ⟨1, _⟩ => show win0_5.index t (1 : Fin 2) * 128 + 1 * (y 1).val = (y 1).val; rw [a51]; omega
  · funext y
    show V c main_arg5 (((cfg0.win 6).blk t).view.emb y) = V c main_arg5 y
    refine congrArg (V c main_arg5) (funext fun a => Fin.ext ?_)
    match a with
    | ⟨0, _⟩ => show win0_6.index t (0 : Fin 2) * 128 + 1 * (y 0).val = (y 0).val; rw [a60]; omega
    | ⟨1, _⟩ => show win0_6.index t (1 : Fin 2) * 128 + 1 * (y 1).val = (y 1).val; rw [a61]; omega
  · funext y
    show V c main_v21 (((cfg0.win 7).blk t).view.emb y) = V c main_v21 y
    refine congrArg (V c main_v21) (funext fun a => Fin.ext ?_)
    match a with
    | ⟨0, _⟩ => show win0_7.index t (0 : Fin 2) * 1 + 1 * (y 0).val = (y 0).val; rw [a70]; omega
    | ⟨1, _⟩ => show win0_7.index t (1 : Fin 2) * 128 + 1 * (y 1).val = (y 1).val; rw [a71]; omega

/-- An index of the edge-feature array is in point `t`'s block iff each coordinate is in the block's range on its axis. -/
theorem mem_blk0 (t : Fin cfg0.N) (i : S600000x128.Idx) :
    i ∈ ((cfg0.win 8).blk t).view.set ↔ ∀ a : Fin 2, win0_8.index t a * S6000x128.size a ≤ (i a).val ∧ (i a).val < win0_8.index t a * S6000x128.size a + S6000x128.size a := by
  show i ∈ ((View.whole main_v22).slice (win0_8.rect t)).set ↔ _
  rw [View.set_slice_whole, Rect.mem_set_unit]
  exact Iff.rfl

/-- Every index of the edge-feature array is in the block of the point its row falls to: row `r` belongs to point `r / 6000`. -/
theorem cover0 (i : S600000x128.Idx) : ∃ t : Fin cfg0.N, (cfg0.win 8).flush t = true ∧ i ∈ ((cfg0.win 8).blk t).view.set := by
  have hi0 : (i 0).val < 600000 := (i 0).isLt
  have hi1 : (i 1).val < 128 := (i 1).isLt
  have hN : cfg0.N = 100 := N_0
  have hlt : (i 0).val / 6000 < cfg0.N := by rw [hN]; omega
  obtain ⟨-, -, -, -, -, -, -, -, -, -, -, -, -, -, -, -, a80, a81⟩ := idx0 ⟨(i 0).val / 6000, hlt⟩
  refine ⟨⟨(i 0).val / 6000, hlt⟩, flush0_8 _, ?_⟩
  rw [mem_blk0]
  intro a
  match a with
  | ⟨0, _⟩ =>
    show win0_8.index ⟨(i 0).val / 6000, hlt⟩ (0 : Fin 2) * 6000 ≤ (i 0).val ∧ (i 0).val < win0_8.index ⟨(i 0).val / 6000, hlt⟩ (0 : Fin 2) * 6000 + 6000
    rw [a80]; show (i 0).val / 6000 * 6000 ≤ (i 0).val ∧ (i 0).val < (i 0).val / 6000 * 6000 + 6000; omega
  | ⟨1, _⟩ =>
    show win0_8.index ⟨(i 0).val / 6000, hlt⟩ (1 : Fin 2) * 128 ≤ (i 1).val ∧ (i 1).val < win0_8.index ⟨(i 0).val / 6000, hlt⟩ (1 : Fin 2) * 128 + 128
    rw [a81]; omega

/-- The edge-feature array after the edge kernel's region is `EdgeK` of the arrays the region finds. -/
theorem final0 (c : Dev nD) : (dat0 V c).arrAt 8 cfg0.N
    = EdgeK (V c main_v10) (V c main_v17) (V c main_arg2) (V c main_v18) (V c main_v19) (V c main_v20) (V c main_arg5) (V c main_v21) :=
  (dat0 V c).arrAt_eq_of_cover 8 _ (fun t _ => flushed0 V c t) cover0

/-! ## The node kernel's region -/

/-- The node kernel's index maps, decided over its grid: the row-blocked windows (the features, the aggregate, the
    result) are at block row `t`, column block 0; the weights and biases always at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` of the node kernel writes back is block `t` of `NodeK` of the arrays the region finds. -/
theorem flushed1 (c : Dev nD) (t : Fin cfg1.N) :
    (dat1 V c).flushed 7 t = ((cfg1.win 7).blk t).view.read (Elt Ideal)
      (NodeK (V c main_arg0) (V c main_v25) (V c main_v26) (V c main_v27) (V c main_v28) (V c main_arg9) (V c main_v29)) := by
  show (cfg1.win 7).cut (grid1.coords t) ((dat1 V c).after 7 t) = _
  rw [after1_7]
  unfold out1_7
  rw [View.canon_unit_zero hz]
  simp only [View.ld_unit_zero (S := S10000x128) hz, View.ld_unit_zero (S := S128x128) hz, View.ld_unit_zero (S := S1x128) hz]
  obtain ⟨a00, a01, a10, a11, a20, a21, a30, a31, a40, a41, a50, a51, a60, a61, a70, a71⟩ := idx1 t
  have ht : t.val < 5 := lt_of_lt_of_eq t.isLt N_1
  funext j
  obtain ⟨p, q, rfl⟩ : ∃ (p : Fin 10000) (q : Fin 128), j = ix2 p q := ⟨j 0, j 1, eq_ix2 j⟩
  have hemb : ((cfg1.win 7).blk t).view.emb (ix2 p q) = ix2 (⟨t.val * 10000 + p.val, by omega⟩ : Fin 50000) q := by
    funext a; apply Fin.ext
    match a with
    | ⟨0, _⟩ => show win1_7.index t (0 : Fin 2) * 10000 + 1 * p.val = t.val * 10000 + p.val; rw [a70]; omega
    | ⟨1, _⟩ => show win1_7.index t (1 : Fin 2) * 128 + 1 * q.val = q.val; rw [a71]; omega
  show k1_pay1 (iblk1 V c 0 t) (iblk1 V c 1 t) (iblk1 V c 2 t) (iblk1 V c 3 t) (iblk1 V c 4 t) (iblk1 V c 5 t) (iblk1 V c 6 t) (iblk1 V c 0 t) (ix2 p q)
    = NodeK (V c main_arg0) (V c main_v25) (V c main_v26) (V c main_v27) (V c main_v28) (V c main_arg9) (V c main_v29) (((cfg1.win 7).blk t).view.emb (ix2 p q))
  rw [hemb]
  refine node_entry (iblk1 V c 0 t) (iblk1 V c 1 t) (iblk1 V c 2 t) (iblk1 V c 3 t) (iblk1 V c 4 t) (iblk1 V c 5 t) (iblk1 V c 6 t)
    (V c main_arg0) (V c main_v25) (V c main_v26) (V c main_v27) (V c main_v28) (V c main_arg9) (V c main_v29)
    p q ⟨t.val * 10000 + p.val, by omega⟩ ?_ ?_ ?_ ?_ ?_ ?_ ?_
  · intro l
    show V c main_arg0 (((cfg1.win 0).blk t).view.emb (ix2 p l)) = V c main_arg0 (ix2 (⟨t.val * 10000 + p.val, by omega⟩ : Fin 50000) l)
    refine congrArg (V c main_arg0) (funext fun a => Fin.ext ?_)
    match a with
    | ⟨0, _⟩ => show win1_0.index t (0 : Fin 2) * 10000 + 1 * p.val = t.val * 10000 + p.val; rw [a00]; omega
    | ⟨1, _⟩ => show win1_0.index t (1 : Fin 2) * 128 + 1 * l.val = l.val; rw [a01]; omega
  · intro l
    show V c main_v25 (((cfg1.win 1).blk t).view.emb (ix2 p l)) = V c main_v25 (ix2 (⟨t.val * 10000 + p.val, by omega⟩ : Fin 50000) l)
    refine congrArg (V c main_v25) (funext fun a => Fin.ext ?_)
    match a with
    | ⟨0, _⟩ => show win1_1.index t (0 : Fin 2) * 10000 + 1 * p.val = t.val * 10000 + p.val; rw [a10]; omega
    | ⟨1, _⟩ => show win1_1.index t (1 : Fin 2) * 128 + 1 * l.val = l.val; rw [a11]; omega
  · funext y
    show V c main_v26 (((cfg1.win 2).blk t).view.emb y) = V c main_v26 y
    refine congrArg (V c main_v26) (funext fun a => Fin.ext ?_)
    match a with
    | ⟨0, _⟩ => show win1_2.index t (0 : Fin 2) * 128 + 1 * (y 0).val = (y 0).val; rw [a20]; omega
    | ⟨1, _⟩ => show win1_2.index t (1 : Fin 2) * 128 + 1 * (y 1).val = (y 1).val; rw [a21]; omega
  · funext y
    show V c main_v27 (((cfg1.win 3).blk t).view.emb y) = V c main_v27 y
    refine congrArg (V c main_v27) (funext fun a => Fin.ext ?_)
    match a with
    | ⟨0, _⟩ => show win1_3.index t (0 : Fin 2) * 128 + 1 * (y 0).val = (y 0).val; rw [a30]; omega
    | ⟨1, _⟩ => show win1_3.index t (1 : Fin 2) * 128 + 1 * (y 1).val = (y 1).val; rw [a31]; omega
  · funext y
    show V c main_v28 (((cfg1.win 4).blk t).view.emb y) = V c main_v28 y
    refine congrArg (V c main_v28) (funext fun a => Fin.ext ?_)
    match a with
    | ⟨0, _⟩ => show win1_4.index t (0 : Fin 2) * 1 + 1 * (y 0).val = (y 0).val; rw [a40]; omega
    | ⟨1, _⟩ => show win1_4.index t (1 : Fin 2) * 128 + 1 * (y 1).val = (y 1).val; rw [a41]; omega
  · funext y
    show V c main_arg9 (((cfg1.win 5).blk t).view.emb y) = V c main_arg9 y
    refine congrArg (V c main_arg9) (funext fun a => Fin.ext ?_)
    match a with
    | ⟨0, _⟩ => show win1_5.index t (0 : Fin 2) * 128 + 1 * (y 0).val = (y 0).val; rw [a50]; omega
    | ⟨1, _⟩ => show win1_5.index t (1 : Fin 2) * 128 + 1 * (y 1).val = (y 1).val; rw [a51]; omega
  · funext y
    show V c main_v29 (((cfg1.win 6).blk t).view.emb y) = V c main_v29 y
    refine congrArg (V c main_v29) (funext fun a => Fin.ext ?_)
    match a with
    | ⟨0, _⟩ => show win1_6.index t (0 : Fin 2) * 1 + 1 * (y 0).val = (y 0).val; rw [a60]; omega
    | ⟨1, _⟩ => show win1_6.index t (1 : Fin 2) * 128 + 1 * (y 1).val = (y 1).val; rw [a61]; omega

/-- An index of the node-output array is in point `t`'s block iff each coordinate is in the block's range on its axis. -/
theorem mem_blk1 (t : Fin cfg1.N) (i : S50000x128.Idx) :
    i ∈ ((cfg1.win 7).blk t).view.set ↔ ∀ a : Fin 2, win1_7.index t a * S10000x128.size a ≤ (i a).val ∧ (i a).val < win1_7.index t a * S10000x128.size a + S10000x128.size a := by
  show i ∈ ((View.whole main_v30).slice (win1_7.rect t)).set ↔ _
  rw [View.set_slice_whole, Rect.mem_set_unit]
  exact Iff.rfl

/-- Every index of the node-output array is in the block of the point its row falls to: row `r` belongs to point `r / 10000`. -/
theorem cover1 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 5 := N_1
  have hlt : (i 0).val / 10000 < cfg1.N := by rw [hN]; omega
  obtain ⟨-, -, -, -, -, -, -, -, -, -, -, -, -, -, a70, a71⟩ := idx1 ⟨(i 0).val / 10000, hlt⟩
  refine ⟨⟨(i 0).val / 10000, hlt⟩, flush1_7 _, ?_⟩
  rw [mem_blk1]
  intro a
  match a with
  | ⟨0, _⟩ =>
    show win1_7.index ⟨(i 0).val / 10000, hlt⟩ (0 : Fin 2) * 10000 ≤ (i 0).val ∧ (i 0).val < win1_7.index ⟨(i 0).val / 10000, hlt⟩ (0 : Fin 2) * 10000 + 10000
    rw [a70]; show (i 0).val / 10000 * 10000 ≤ (i 0).val ∧ (i 0).val < (i 0).val / 10000 * 10000 + 10000; omega
  | ⟨1, _⟩ =>
    show win1_7.index ⟨(i 0).val / 10000, hlt⟩ (1 : Fin 2) * 128 ≤ (i 1).val ∧ (i 1).val < win1_7.index ⟨(i 0).val / 10000, hlt⟩ (1 : Fin 2) * 128 + 128
    rw [a71]; omega

/-- The node-output array after the node kernel's region is `NodeK` of the arrays the region finds. -/
theorem final1 (c : Dev nD) : (dat1 V c).arrAt 7 cfg1.N
    = NodeK (V c main_arg0) (V c main_v25) (V c main_v26) (V c main_v27) (V c main_v28) (V c main_arg9) (V c main_v29) :=
  (dat1 V c).arrAt_eq_of_cover 7 _ (fun t _ => flushed1 V c t) cover1

end Cert.KernelIdeal.Hand

end
-- ==== Proof.Spec.lean ====
/-
  The two results as functions of the ARGUMENT arrays, entry by entry.

  `EdgeR` is the edge-feature array: entry `(e, j)` is the edge row function of row `e` of the two gathered
  arrays `XR`, `XC` (the features of edge `e`'s two endpoints), of the upper and the lower 128 rows of the first
  weight matrix `W1 : [256, 128]`, of the biases and the second weight matrix, and of the mask's entry `e`.
  `NodeR` is the node output: entry `(n, j)` is the node row function of row `n` of the features `X` and of the
  aggregated messages `AG`. Both programs are shown to compute these two functions.
-/
import proofs.«127116_j86620900426032_2_alg».proof.Proof.RowSpec
import Idealize.ShloMosaic.Lib.ValueIdx

noncomputable section

namespace Cert.Mlp

open Idealize.ShloMosaic Idealize.ShloMosaic.ValueIdx

/-- The edge features of all 600000 edges from the gathered endpoint features and the edge perceptron's parameters. -/
def EdgeR (XR XC : (⟨2, ![600000, 128]⟩ : Shape).Idx → EReal) (MK : (⟨2, ![600000, 1]⟩ : Shape).Idx → EReal)
    (W1 : (⟨2, ![256, 128]⟩ : Shape).Idx → EReal) (B1 : (⟨1, ![128]⟩ : Shape).Idx → EReal)
    (W2 : (⟨2, ![128, 128]⟩ : Shape).Idx → EReal) (B2 : (⟨1, ![128]⟩ : Shape).Idx → EReal) :
    (⟨2, ![600000, 128]⟩ : Shape).Idx → EReal :=
  fun i => edgeOut (fun l => XR (ix2 (i 0) l)) (fun l => XC (ix2 (i 0) l))
    (fun l k => W1 (ix2 (⟨l.val, by omega⟩ : Fin 256) k)) (fun l k => W1 (ix2 (⟨128 + l.val, by omega⟩ : Fin 256) k))
    (fun k => B1 (ix1 k)) (fun k j => W2 (ix2 k j)) (fun j => B2 (ix1 j)) (MK (ix2 (i 0) (0 : Fin 1))) (i 1)

/-- The node outputs of all 50000 nodes from the features, the aggregated messages and the node perceptron's parameters. -/
def NodeR (X AG : (⟨2, ![50000, 128]⟩ : Shape).Idx → EReal)
    (W1 : (⟨2, ![256, 128]⟩ : Shape).Idx → EReal) (B1 : (⟨1, ![128]⟩ : Shape).Idx → EReal)
    (W2 : (⟨2, ![128, 128]⟩ : Shape).Idx → EReal) (B2 : (⟨1, ![128]⟩ : Shape).Idx → EReal) :
    (⟨2, ![50000, 128]⟩ : Shape).Idx → EReal :=
  fun i => nodeOut (fun l => X (ix2 (i 0) l)) (fun l => AG (ix2 (i 0) l))
    (fun l k => W1 (ix2 (⟨l.val, by omega⟩ : Fin 256) k)) (fun l k => W1 (ix2 (⟨128 + l.val, by omega⟩ : Fin 256) k))
    (fun k => B1 (ix1 k)) (fun k j => W2 (ix2 k j)) (fun j => B2 (ix1 j)) (i 1)

end Cert.Mlp

end
-- ==== Proof.KValue.lean ====
/-
  The idealized kernel program's two results as functions of its arguments.

  Read through the four stretches of the program:
  * the first host stretch leaves, beside the untouched arguments, the two gathered arrays `gatherRows x (rowIdx ei)`
    and `gatherRows x (colIdx ei)` (the features of each edge's source and target node), the upper and lower 128
    rows of the edge perceptron's first weight matrix, and its two biases as one-row matrices;
  * the edge kernel leaves the edge-feature array at `EdgeK` of those (`final0`), which is `Mlp.EdgeR` of the
    gathered arrays and the ARGUMENTS: a slice of the weight matrix read at `(l, k)` is the matrix at `(l, k)` or
    `(128 + l, k)`, a bias cast to one row read at `(0, k)` is the bias at `k`;
  * the second host stretch adds every edge's feature row into its source node's row (`aggRows`), and slices and
    casts the node perceptron's parameters in the same way;
  * the node kernel leaves the node output at `NodeK` of those (`final1`), which is `Mlp.NodeR`.
-/
import proofs.«127116_j86620900426032_2_alg».proof.Proof.KBlocks
import proofs.«127116_j86620900426032_2_alg».proof.Proof.Spec
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

/-! ## The host operations' values, named -/

/-- The source-node index of every edge: row 0 of the edge index array. -/
def rowIdx (x1 : IVec S2x600000 32) : IVec S600000 32 :=
  shapeCast _ (extractStridedSlice S1x600000 ![0, 0] x1 slices_S2x600000_S1x600000_0_0) shapeCasts_S1x600000_S600000

/-- The target-node index of every edge: row 1 of the edge index array. -/
def colIdx (x1 : IVec S2x600000 32) : IVec S600000 32 :=
  shapeCast _ (extractStridedSlice S1x600000 ![1, 0] x1 slices_S2x600000_S1x600000_1_0) shapeCasts_S1x600000_S600000

/-- A negative index counted from the end: `r + 50000` where `r < 0`, else `r`. -/
def wrapIdx (r : IVec S600000 32) : IVec S600000 32 :=
  select (cmpi .slt r (broadcastInDim S600000 ![] bcast_S_S600000 (constantI S_ 32 0#32)))
    (addi r (broadcastInDim S600000 ![] bcast_S_S600000 (constantI S_ 32 50000#32))) r

/-- The feature rows at the given node indices (the host's gather; not opened). -/
def gatherRows (x0 : FVec Ideal S50000x128 .f32) (r : IVec S600000 32) : FVec Ideal S600000x128 .f32 :=
  Host.gather gather_S50000x128_S600000x1_S600000x128_1_0_n_n_0_1_1128 x0 (broadcastInDim S600000x1 ![0] bcast_S600000_S600000x1_0 (wrapIdx r))

/-- Every edge's row added into the row of its source node, from zero (the host's scatter-add; not opened). -/
def aggRows (x1 : IVec S2x600000 32) (u : FVec Ideal S600000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (rowIdx x1)) u

/-! ## Slices and one-row casts of the parameters, read at an entry -/

/-- The upper 128 rows of a `[256, 128]` matrix at `(l, k)`: the matrix at `(l, k)`. -/
theorem upper_apply (W : S256x128.Idx → EReal) (l k : Fin 128) :
    extractStridedSlice S128x128 ![0, 0] W slices_S256x128_S128x128_0_0 (ix2 l k) = W (ix2 (⟨l.val, by omega⟩ : Fin 256) k) :=
  extractStridedSlice_apply ![0, 0] W slices_S256x128_S128x128_0_0 (ix2 l k) (ix2 (⟨l.val, by omega⟩ : Fin 256) k) (fun a => match a with
    | ⟨0, _⟩ => by show l.val = 0 + l.val; omega
    | ⟨1, _⟩ => by show k.val = 0 + k.val; omega)

/-- The lower 128 rows of a `[256, 128]` matrix at `(l, k)`: the matrix at `(128 + l, k)`. -/
theorem lower_apply (W : S256x128.Idx → EReal) (l k : Fin 128) :
    extractStridedSlice S128x128 ![128, 0] W slices_S256x128_S128x128_128_0 (ix2 l k) = W (ix2 (⟨128 + l.val, by omega⟩ : Fin 256) k) :=
  extractStridedSlice_apply ![128, 0] W slices_S256x128_S128x128_128_0 (ix2 l k) (ix2 (⟨128 + l.val, by omega⟩ : Fin 256) k) (fun a => match a with
    | ⟨0, _⟩ => by show 128 + l.val = 128 + l.val; rfl
    | ⟨1, _⟩ => by show k.val = 0 + k.val; omega)

/-- A `[128]` bias cast to one row, at `(0, k)`: the bias at `k`. -/
theorem row_apply (B : S128.Idx → EReal) (k : Fin 128) :
    shapeCast S1x128 B shapeCasts_S128_S1x128 (ix2 (0 : Fin 1) k) = B (ix1 k) :=
  shapeCast_a_1a_apply B shapeCasts_S128_S1x128 (0 : Fin 1) k

/-- `EdgeK` of the sliced and cast parameters is the specification's edge features of the parameters themselves. -/
theorem edgeK_eq (XR XC : S600000x128.Idx → EReal) (MK : S600000x1.Idx → EReal) (W1 : S256x128.Idx → EReal)
    (B1 : S128.Idx → EReal) (W2 : S128x128.Idx → EReal) (B2 : S128.Idx → EReal) :
    EdgeK XR XC MK (extractStridedSlice S128x128 ![0, 0] W1 slices_S256x128_S128x128_0_0)
      (extractStridedSlice S128x128 ![128, 0] W1 slices_S256x128_S128x128_128_0)
      (shapeCast S1x128 B1 shapeCasts_S128_S1x128) W2 (shapeCast S1x128 B2 shapeCasts_S128_S1x128)
      = Mlp.EdgeR XR XC MK W1 B1 W2 B2 := by
  funext i
  unfold EdgeK Mlp.EdgeR
  simp only [upper_apply, lower_apply, row_apply]

/-- `NodeK` of the sliced and cast parameters is the specification's node output of the parameters themselves. -/
theorem nodeK_eq (X AG : S50000x128.Idx → EReal) (W1 : S256x128.Idx → EReal)
    (B1 : S128.Idx → EReal) (W2 : S128x128.Idx → EReal) (B2 : S128.Idx → EReal) :
    NodeK X AG (extractStridedSlice S128x128 ![0, 0] W1 slices_S256x128_S128x128_0_0)
      (extractStridedSlice S128x128 ![128, 0] W1 slices_S256x128_S128x128_128_0)
      (shapeCast S1x128 B1 shapeCasts_S128_S1x128) W2 (shapeCast S1x128 B2 shapeCasts_S128_S1x128)
      = Mlp.NodeR X AG W1 B1 W2 B2 := by
  funext i
  unfold NodeK Mlp.NodeR
  simp only [upper_apply, lower_apply, row_apply]

/-! ## The buffers at the edge kernel's entry -/

variable (m : (ℓ : Loc nD τ sig) → Buf (Elt Ideal) ℓ) (ρ : Dev nD → PrngReg)

theorem V1_v10 (c : Dev nD) : (V1 m ρ c main_v10 : S600000x128.Idx → EReal)
    = gatherRows (m ((c : Thread nD τ).loc main_arg0)) (rowIdx (m ((c : Thread nD τ).loc main_arg1))) := by
  show StableHlo.after hostOps0 (W0 m ρ c) (Proc.devRef .tc main_v10) = _
  after_results <;> rfl

theorem V1_v17 (c : Dev nD) : (V1 m ρ c main_v17 : S600000x128.Idx → EReal)
    = gatherRows (m ((c : Thread nD τ).loc main_arg0)) (colIdx (m ((c : Thread nD τ).loc main_arg1))) := by
  show StableHlo.after hostOps0 (W0 m ρ c) (Proc.devRef .tc main_v17) = _
  after_results <;> rfl

theorem V1_arg2 (c : Dev nD) : (V1 m ρ c main_arg2 : S600000x1.Idx → EReal) = m ((c : Thread nD τ).loc main_arg2) := by
  show StableHlo.after hostOps0 (W0 m ρ c) (Proc.devRef .tc main_arg2) = _
  after_results <;> rfl

theorem V1_v18 (c : Dev nD) : (V1 m ρ c main_v18 : S128x128.Idx → EReal)
    = extractStridedSlice S128x128 ![0, 0] (m ((c : Thread nD τ).loc main_arg3)) slices_S256x128_S128x128_0_0 := by
  show StableHlo.after hostOps0 (W0 m ρ c) (Proc.devRef .tc main_v18) = _
  after_results <;> rfl

theorem V1_v19 (c : Dev nD) : (V1 m ρ c main_v19 : S128x128.Idx → EReal)
    = extractStridedSlice S128x128 ![128, 0] (m ((c : Thread nD τ).loc main_arg3)) slices_S256x128_S128x128_128_0 := by
  show StableHlo.after hostOps0 (W0 m ρ c) (Proc.devRef .tc main_v19) = _
  after_results <;> rfl

theorem V1_v20 (c : Dev nD) : (V1 m ρ c main_v20 : S1x128.Idx → EReal)
    = shapeCast S1x128 (m ((c : Thread nD τ).loc main_arg4)) shapeCasts_S128_S1x128 := by
  show StableHlo.after hostOps0 (W0 m ρ c) (Proc.devRef .tc main_v20) = _
  after_results <;> rfl

theorem V1_arg5 (c : Dev nD) : (V1 m ρ c main_arg5 : S128x128.Idx → EReal) = m ((c : Thread nD τ).loc main_arg5) := by
  show StableHlo.after hostOps0 (W0 m ρ c) (Proc.devRef .tc main_arg5) = _
  after_results <;> rfl

theorem V1_v21 (c : Dev nD) : (V1 m ρ c main_v21 : S1x128.Idx → EReal)
    = shapeCast S1x128 (m ((c : Thread nD τ).loc main_arg6)) shapeCasts_S128_S1x128 := by
  show StableHlo.after hostOps0 (W0 m ρ c) (Proc.devRef .tc main_v21) = _
  after_results <;> rfl

/-! ## The buffers at the edge kernel's exit -/

/-- The edge features as the specification's function of the arguments. -/
abbrev edgeFeat (c : Dev nD) : S600000x128.Idx → EReal :=
  Mlp.EdgeR (gatherRows (m ((c : Thread nD τ).loc main_arg0)) (rowIdx (m ((c : Thread nD τ).loc main_arg1))))
    (gatherRows (m ((c : Thread nD τ).loc main_arg0)) (colIdx (m ((c : Thread nD τ).loc main_arg1))))
    (m ((c : Thread nD τ).loc main_arg2)) (m ((c : Thread nD τ).loc main_arg3)) (m ((c : Thread nD τ).loc main_arg4))
    (m ((c : Thread nD τ).loc main_arg5)) (m ((c : Thread nD τ).loc main_arg6))

/-- After the edge kernel the edge-feature buffer holds the edge features. -/
theorem W2_v22 (c : Dev nD) : (W2 m ρ c (Proc.devRef .tc main_v22) : S600000x128.Idx → EReal) = edgeFeat m c := by
  refine (W2_arr m ρ c 8).trans ((final0 (V1 m ρ) c).trans ?_)
  rw [V1_v10, V1_v17, V1_arg2, V1_v18, V1_v19, V1_v20, V1_arg5, V1_v21]
  exact edgeK_eq _ _ _ _ _ _ _

/-- The edge kernel does not touch the source-node indices the first host stretch computed. -/
theorem W2_v1 (c : Dev nD) : (W2 m ρ c (Proc.devRef .tc main_v1) : S600000.Idx → BitVec 32) = rowIdx (m ((c : Thread nD τ).loc main_arg1)) := by
  refine (W2_of_ne m ρ c main_v1 (by decide)).trans ?_
  show StableHlo.after hostOps0 (W0 m ρ c) (Proc.devRef .tc main_v1) = _
  after_results <;> rfl

theorem W2_arg0 (c : Dev nD) : (W2 m ρ c (Proc.devRef .tc main_arg0) : S50000x128.Idx → EReal) = m ((c : Thread nD τ).loc main_arg0) := by
  refine (W2_of_ne m ρ c main_arg0 (by decide)).trans ?_
  show StableHlo.after hostOps0 (W0 m ρ c) (Proc.devRef .tc main_arg0) = _
  after_results <;> rfl

theorem W2_arg7 (c : Dev nD) : (W2 m ρ c (Proc.devRef .tc main_arg7) : S256x128.Idx → EReal) = m ((c : Thread nD τ).loc main_arg7) := by
  refine (W2_of_ne m ρ c main_arg7 (by decide)).trans ?_
  show StableHlo.after hostOps0 (W0 m ρ c) (Proc.devRef .tc main_arg7) = _
  after_results <;> rfl

theorem W2_arg8 (c : Dev nD) : (W2 m ρ c (Proc.devRef .tc main_arg8) : S128.Idx → EReal) = m ((c : Thread nD τ).loc main_arg8) := by
  refine (W2_of_ne m ρ c main_arg8 (by decide)).trans ?_
  show StableHlo.after hostOps0 (W0 m ρ c) (Proc.devRef .tc main_arg8) = _
  after_results <;> rfl

theorem W2_arg9 (c : Dev nD) : (W2 m ρ c (Proc.devRef .tc main_arg9) : S128x128.Idx → EReal) = m ((c : Thread nD τ).loc main_arg9) := by
  refine (W2_of_ne m ρ c main_arg9 (by decide)).trans ?_
  show StableHlo.after hostOps0 (W0 m ρ c) (Proc.devRef .tc main_arg9) = _
  after_results <;> rfl

theorem W2_arg10 (c : Dev nD) : (W2 m ρ c (Proc.devRef .tc main_arg10) : S128.Idx → EReal) = m ((c : Thread nD τ).loc main_arg10) := by
  refine (W2_of_ne m ρ c main_arg10 (by decide)).trans ?_
  show StableHlo.after hostOps0 (W0 m ρ c) (Proc.devRef .tc main_arg10) = _
  after_results <;> rfl

/-! ## The buffers at the node kernel's entry -/

theorem V3_arg0 (c : Dev nD) : (V3 m ρ c main_arg0 : S50000x128.Idx → EReal) = m ((c : Thread nD τ).loc main_arg0) := by
  show StableHlo.after hostOps1 (W2 m ρ c) (Proc.devRef .tc main_arg0) = _
  after_results
  exact W2_arg0 m ρ c

theorem V3_v25 (c : Dev nD) : (V3 m ρ c main_v25 : S50000x128.Idx → EReal)
    = aggRows (m ((c : Thread nD τ).loc main_arg1)) (edgeFeat m c) := by
  show StableHlo.after hostOps1 (W2 m ρ c) (Proc.devRef .tc main_v25) = _
  after_results
  rw [W2_v1, W2_v22]
  rfl

theorem V3_v26 (c : Dev nD) : (V3 m ρ c main_v26 : S128x128.Idx → EReal)
    = extractStridedSlice S128x128 ![0, 0] (m ((c : Thread nD τ).loc main_arg7)) slices_S256x128_S128x128_0_0 := by
  show StableHlo.after hostOps1 (W2 m ρ c) (Proc.devRef .tc main_v26) = _
  after_results
  rw [W2_arg7]

theorem V3_v27 (c : Dev nD) : (V3 m ρ c main_v27 : S128x128.Idx → EReal)
    = extractStridedSlice S128x128 ![128, 0] (m ((c : Thread nD τ).loc main_arg7)) slices_S256x128_S128x128_128_0 := by
  show StableHlo.after hostOps1 (W2 m ρ c) (Proc.devRef .tc main_v27) = _
  after_results
  rw [W2_arg7]

theorem V3_v28 (c : Dev nD) : (V3 m ρ c main_v28 : S1x128.Idx → EReal)
    = shapeCast S1x128 (m ((c : Thread nD τ).loc main_arg8)) shapeCasts_S128_S1x128 := by
  show StableHlo.after hostOps1 (W2 m ρ c) (Proc.devRef .tc main_v28) = _
  after_results
  rw [W2_arg8]
  rfl

theorem V3_arg9 (c : Dev nD) : (V3 m ρ c main_arg9 : S128x128.Idx → EReal) = m ((c : Thread nD τ).loc main_arg9) := by
  show StableHlo.after hostOps1 (W2 m ρ c) (Proc.devRef .tc main_arg9) = _
  after_results
  exact W2_arg9 m ρ c

theorem V3_v29 (c : Dev nD) : (V3 m ρ c main_v29 : S1x128.Idx → EReal)
    = shapeCast S1x128 (m ((c : Thread nD τ).loc main_arg10)) shapeCasts_S128_S1x128 := by
  show StableHlo.after hostOps1 (W2 m ρ c) (Proc.devRef .tc main_v29) = _
  after_results
  rw [W2_arg10]
  rfl

/-! ## The two results at the last boundary -/

/-- The node output as the specification's function of the arguments. -/
abbrev nodeOutArr (c : Dev nD) : S50000x128.Idx → EReal :=
  Mlp.NodeR (m ((c : Thread nD τ).loc main_arg0)) (aggRows (m ((c : Thread nD τ).loc main_arg1)) (edgeFeat m c))
    (m ((c : Thread nD τ).loc main_arg7)) (m ((c : Thread nD τ).loc main_arg8))
    (m ((c : Thread nD τ).loc main_arg9)) (m ((c : Thread nD τ).loc main_arg10))

/-- At the end the edge-feature buffer still holds the edge features: neither the second host stretch nor the node
    kernel writes it. -/
theorem W4_v22 (c : Dev nD) : (W4 m ρ c (Proc.devRef .tc main_v22) : S600000x128.Idx → EReal) = edgeFeat m c := by
  refine (W4_of_ne m ρ c main_v22 (by decide)).trans ?_
  show StableHlo.after hostOps1 (W2 m ρ c) (Proc.devRef .tc main_v22) = _
  after_results
  exact W2_v22 m ρ c

/-- At the end the node-output buffer holds the node output. -/
theorem W4_v30 (c : Dev nD) : (W4 m ρ c (Proc.devRef .tc main_v30) : S50000x128.Idx → EReal) = nodeOutArr m c := by
  refine (W4_arr m ρ c 7).trans ((final1 (V3 m ρ) c).trans ?_)
  rw [V3_arg0, V3_v25, V3_v26, V3_v27, V3_v28, V3_arg9, V3_v29]
  exact nodeK_eq _ _ _ _ _ _

end Cert.KernelIdeal.Hand

end
-- ==== Proof.KFinal.lean ====
/-
  The idealized kernel program's run, at the specification.

  The run names the two results as the last boundary's contents at their buffers; those contents are the
  specification's node output and edge features of the arguments.
-/
import proofs.«127116_j86620900426032_2_alg».proof.Proof.KRun
import proofs.«127116_j86620900426032_2_alg».proof.Proof.KValue

noncomputable section

namespace Cert.KernelIdeal.Hand

open Cert.KernelIdeal Cert.KernelIdeal.Gen
open Idealize.ShloMosaic Idealize.ShloMosaic.TcCoe Idealize.SL.Sem

/-- Every weakly fair execution of the idealized kernel program terminates with its node output at
    `nodeOutArr`, its edge features at `edgeFeat`, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v30) = nodeOutArr m c
      ∧ r.2.mem ((c.tc : Thread nD τ).loc main_v22) = edgeFeat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨(h c).1.trans (W4_v30 m ρ c), (h c).2.1.trans (W4_v22 m ρ c), (h c).2.2⟩)
    (run_results m ρ)

end Cert.KernelIdeal.Hand

end
-- ==== Proof.RefValue.lean ====
/-
  The reference's two results are the specification's two functions.

  Read one operation at a time, the reference's edge stage at entry `(e, q)` is
  `max (∑ k, max (∑ l : Fin 256, [XR, XC] (e, l) * W1 (l, k) + B1 k) 0 * W2 (k, q) + B2 q) 0 * MK e`, where `[XR, XC]`
  joins the two gathered arrays along the feature axis. A joined row read below position 128 is the first array's
  row, from 128 on the second's (`cat_left`, `cat_right`), so the sum over the 256 joined positions is the first
  array against the upper half of `W1` plus the second against the lower half (`Mlp.sum_join`): the edge row
  function. The node stage is the same with the features and the aggregate joined, no second rectifier, and the
  features added at the end. The gathers and the scatter-add are not opened: they enter as the arrays they produce.
-/
import proofs.«127116_j86620900426032_2_alg».proof.Proof.Gen.ReferenceIdeal.Read
import proofs.«127116_j86620900426032_2_alg».proof.Proof.Spec

noncomputable section

namespace Cert.ReferenceIdeal.Hand

open Cert.ReferenceIdeal Cert.ReferenceIdeal.Read Idealize.ShloMosaic Idealize.ShloMosaic.ValueIdx
open Idealize.ShloMosaic.TcCoe Idealize.SL.Sem

/-! ## A joined row, read on each half -/

/-- The two edge arrays joined along the feature axis, read below position 128: the first array. -/
theorem cat_left (A B : S600000x128.Idx → EReal) (h : Shape.Concatenates [S600000x128, S600000x128] S600000x256 1)
    (e : Fin 600000) (l : Fin 128) :
    concatenate S600000x256 1 [⟨S600000x128, A⟩, ⟨S600000x128, B⟩] h (ix2 e (⟨l.val, by omega⟩ : Fin 256)) = A (ix2 e l) :=
  concatenate_pair_apply_left 1 A B h (ix2 e (⟨l.val, by omega⟩ : Fin 256)) rfl (ix2 e l) (fun b => match b with
    | ⟨0, _⟩ => rfl
    | ⟨1, _⟩ => rfl)

/-- The two edge arrays joined along the feature axis, read from position 128 on: the second array. -/
theorem cat_right (A B : S600000x128.Idx → EReal) (h : Shape.Concatenates [S600000x128, S600000x128] S600000x256 1)
    (e : Fin 600000) (l : Fin 128) :
    concatenate S600000x256 1 [⟨S600000x128, A⟩, ⟨S600000x128, B⟩] h (ix2 e (⟨128 + l.val, by omega⟩ : Fin 256)) = B (ix2 e l) :=
  concatenate_pair_apply_right 1 A B h (ix2 e (⟨128 + l.val, by omega⟩ : Fin 256)) rfl rfl (ix2 e l) (fun b hb => match b with
    | ⟨0, _⟩ => rfl
    | ⟨1, _⟩ => absurd rfl hb) (by show l.val + 128 = 128 + l.val; omega)

/-- The two node arrays joined along the feature axis, read below position 128: the first array. -/
theorem catN_left (A B : S50000x128.Idx → EReal) (h : Shape.Concatenates [S50000x128, S50000x128] S50000x256 1)
    (n : Fin 50000) (l : Fin 128) :
    concatenate S50000x256 1 [⟨S50000x128, A⟩, ⟨S50000x128, B⟩] h (ix2 n (⟨l.val, by omega⟩ : Fin 256)) = A (ix2 n l) :=
  concatenate_pair_apply_left 1 A B h (ix2 n (⟨l.val, by omega⟩ : Fin 256)) rfl (ix2 n l) (fun b => match b with
    | ⟨0, _⟩ => rfl
    | ⟨1, _⟩ => rfl)

/-- The two node arrays joined along the feature axis, read from position 128 on: the second array. -/
theorem catN_right (A B : S50000x128.Idx → EReal) (h : Shape.Concatenates [S50000x128, S50000x128] S50000x256 1)
    (n : Fin 50000) (l : Fin 128) :
    concatenate S50000x256 1 [⟨S50000x128, A⟩, ⟨S50000x128, B⟩] h (ix2 n (⟨128 + l.val, by omega⟩ : Fin 256)) = B (ix2 n l) :=
  concatenate_pair_apply_right 1 A B h (ix2 n (⟨128 + l.val, by omega⟩ : Fin 256)) rfl rfl (ix2 n l) (fun b hb => match b with
    | ⟨0, _⟩ => rfl
    | ⟨1, _⟩ => absurd rfl hb) (by show l.val + 128 = 128 + l.val; omega)

/-! ## The edge features -/

/-- The reference's edge-feature stage is `Mlp.EdgeR` of its two gathered arrays and the edge perceptron's arguments. -/
theorem edge_ref (x0 : (⟨S50000x128, .f32⟩ : BufTy).Contents (Elt Ideal)) (x1 : (⟨S2x600000, .i32⟩ : BufTy).Contents (Elt Ideal))
    (x2 : (⟨S600000x1, .f32⟩ : BufTy).Contents (Elt Ideal)) (x3 : (⟨S256x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v30 (F := Ideal) x0 x1 x2 x3 x4 x5 x6
      = Mlp.EdgeR (val_main_v10 (F := Ideal) x0 x1) (val_main_v17 (F := Ideal) x0 x1) x2 x3 x4 x5 x6 := by
  funext i
  obtain ⟨e, q, rfl⟩ : ∃ (e : Fin 600000) (q : Fin 128), i = ix2 e q := ⟨i 0, i 1, eq_ix2 i⟩
  have e1 : ∀ (k : Fin 128) (l : Fin 256), lidx_main_v19 (lidx_main_v24 (ix2 e q) k) l = ix2 e l := fun k l =>
    funext fun a => Fin.ext (by match a with | ⟨0, _⟩ => rfl | ⟨1, _⟩ => rfl)
  have e2 : ∀ (k : Fin 128) (l : Fin 256), ridx_main_v19 (lidx_main_v24 (ix2 e q) k) l = ix2 l k := fun k l =>
    funext fun a => Fin.ext (by match a with | ⟨0, _⟩ => rfl | ⟨1, _⟩ => rfl)
  have e3 : ∀ k : Fin 128, idx_main_v20 (idx_main_v21 (lidx_main_v24 (ix2 e q) k)) = ix1 k := fun k =>
    funext fun a => Fin.ext (by match a with | ⟨0, _⟩ => rfl)
  have e4 : ∀ k : Fin 128, ridx_main_v24 (ix2 e q) k = ix2 k q := fun k =>
    funext fun a => Fin.ext (by match a with | ⟨0, _⟩ => rfl | ⟨1, _⟩ => rfl)
  have e5 : idx_main_v25 (idx_main_v26 (ix2 e q)) = ix1 q :=
    funext fun a => Fin.ext (by match a with | ⟨0, _⟩ => rfl)
  have e6 : idx_main_v29 (ix2 e q) = ix2 e (0 : Fin 1) :=
    funext fun a => Fin.ext (by match a with | ⟨0, _⟩ => rfl | ⟨1, _⟩ => rfl)
  simp only [val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_call0_v0_apply, val_main_call0_cst_apply, val_main_call1_v0_apply, val_main_call1_cst_apply,
    Ideal.mulf_def, Ideal.addf_def, Ideal.maximumf_def, Ideal.ofBits_def, Ideal.ofBits_zero_f32, e1, e2, e3, e4, e5, e6]
  show _ = Mlp.edgeOut (fun l => val_main_v10 (F := Ideal) x0 x1 (ix2 e l)) (fun l => val_main_v17 (F := Ideal) x0 x1 (ix2 e l))
    (fun l k => x3 (ix2 (⟨l.val, by omega⟩ : Fin 256) k)) (fun l k => x3 (ix2 (⟨128 + l.val, by omega⟩ : Fin 256) k))
    (fun k => x4 (ix1 k)) (fun k j => x5 (ix2 k j)) (fun j => x6 (ix1 j)) (x2 (ix2 e (0 : Fin 1))) q
  unfold Mlp.edgeOut Mlp.second Mlp.hidden val_main_v18
  simp only [Mlp.sum_join, cat_left, cat_right]

/-! ## The node outputs -/

/-- The reference's node-output stage is `Mlp.NodeR` of the features, its aggregate array and the node perceptron's arguments. -/
theorem node_ref (x0 : (⟨S50000x128, .f32⟩ : BufTy).Contents (Elt Ideal)) (x1 : (⟨S2x600000, .i32⟩ : BufTy).Contents (Elt Ideal))
    (x2 : (⟨S600000x1, .f32⟩ : BufTy).Contents (Elt Ideal)) (x3 : (⟨S256x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) :
    val_main_v44 (F := Ideal) x0 x1 x2 x3 x4 x5 x6 x7 x8 x9 x10
      = Mlp.NodeR x0 (val_main_v33 (F := Ideal) x0 x1 x2 x3 x4 x5 x6) x7 x8 x9 x10 := by
  funext i
  obtain ⟨n, q, rfl⟩ : ∃ (n : Fin 50000) (q : Fin 128), i = ix2 n q := ⟨i 0, i 1, eq_ix2 i⟩
  have e1 : ∀ (k : Fin 128) (l : Fin 256), lidx_main_v35 (lidx_main_v40 (ix2 n q) k) l = ix2 n l := fun k l =>
    funext fun a => Fin.ext (by match a with | ⟨0, _⟩ => rfl | ⟨1, _⟩ => rfl)
  have e2 : ∀ (k : Fin 128) (l : Fin 256), ridx_main_v35 (lidx_main_v40 (ix2 n q) k) l = ix2 l k := fun k l =>
    funext fun a => Fin.ext (by match a with | ⟨0, _⟩ => rfl | ⟨1, _⟩ => rfl)
  have e3 : ∀ k : Fin 128, idx_main_v36 (idx_main_v37 (lidx_main_v40 (ix2 n q) k)) = ix1 k := fun k =>
    funext fun a => Fin.ext (by match a with | ⟨0, _⟩ => rfl)
  have e4 : ∀ k : Fin 128, ridx_main_v40 (ix2 n q) k = ix2 k q := fun k =>
    funext fun a => Fin.ext (by match a with | ⟨0, _⟩ => rfl | ⟨1, _⟩ => rfl)
  have e5 : idx_main_v41 (idx_main_v42 (ix2 n q)) = ix1 q :=
    funext fun a => Fin.ext (by match a with | ⟨0, _⟩ => rfl)
  simp only [val_main_v44_apply, val_main_v43_apply, val_main_v42_apply, val_main_v41_apply, val_main_v40_apply, val_main_v39_apply,
    val_main_v38_apply, val_main_v37_apply, val_main_v36_apply, val_main_v35_apply,
    val_main_call2_v0_apply, val_main_call2_cst_apply,
    Ideal.addf_def, Ideal.maximumf_def, Ideal.ofBits_def, Ideal.ofBits_zero_f32, e1, e2, e3, e4, e5]
  show _ = Mlp.nodeOut (fun l => x0 (ix2 n l)) (fun l => val_main_v33 (F := Ideal) x0 x1 x2 x3 x4 x5 x6 (ix2 n l))
    (fun l k => x7 (ix2 (⟨l.val, by omega⟩ : Fin 256) k)) (fun l k => x7 (ix2 (⟨128 + l.val, by omega⟩ : Fin 256) k))
    (fun k => x8 (ix1 k)) (fun k j => x9 (ix2 k j)) (fun j => x10 (ix1 j)) q
  unfold Mlp.nodeOut Mlp.second Mlp.hidden val_main_v34
  simp only [Mlp.sum_join, catN_left, catN_right]

/-! ## The reference's run, at the specification -/

/-- Every weakly fair execution of the reference terminates with its node output at `Mlp.NodeR` of the features and
    its aggregate array, its edge features at `Mlp.EdgeR` of its gathered arrays, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
        = Mlp.NodeR (m ((c.tc : Thread nD τ).loc main_arg0))
            (val_main_v33 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)))
            (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_v30)
        = Mlp.EdgeR (val_main_v10 (F := Ideal) (m ((c.tc : Thread nD τ).loc main_arg0)) (m ((c.tc : Thread nD τ).loc main_arg1)))
            (val_main_v17 (F := Ideal) (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c).1.trans ((val_main_v44_eq _ _ _ _ _ _ _ _ _ _ _).trans (node_ref _ _ _ _ _ _ _ _ _ _ _)),
       (h c).2.1.trans ((val_main_v30_eq _ _ _ _ _ _ _).trans (edge_ref _ _ _ _ _ _ _)),
       (h c).2.2⟩)
    (Cert.ReferenceIdeal.Value.run (F := Ideal) m ρ)

end Cert.ReferenceIdeal.Hand

end
-- ==== Proof.lean ====
/-
  One message-passing step of a graph network: the Pallas kernel program against its jnp reference, on the extended reals.

  Both programs gather the feature rows of each edge's two endpoints, run the edge perceptron on them, scale by
  the edge mask, add each edge's feature row into its source node's row, and run the node perceptron on the
  node's features and its aggregate, adding the features back. They differ in one place: the reference joins the
  two input rows into one row of 256 entries and multiplies it by the whole `256 × 128` first weight matrix, while
  the kernels multiply the two rows of 128 entries by the upper and the lower half of that matrix and add the two
  products. On the extended reals a rounding to bf16 is the identity and the sum over the 256 joined positions is
  the sum over the first 128 plus the sum over the last 128 — addition of extended reals is commutative and
  associative, so no finiteness is used and the precondition is never opened.

  The kernel program's two results are read off its run region by region (`Cert.KernelIdeal.Hand.run_spec`), the
  reference's off its run operation by operation (`Cert.ReferenceIdeal.Hand.run_spec`); both are the specification's
  `Mlp.NodeR` and `Mlp.EdgeR`. The gathers and the scatter-add are the same operations on the same operands in
  the two programs and are never opened. The idealization rewrote nothing, so `preserves` is trivial.
-/
import proofs.«127116_j86620900426032_2_alg».proof.Defs
import proofs.«127116_j86620900426032_2_alg».proof.Proof.Gen.Kernel
import proofs.«127116_j86620900426032_2_alg».proof.Proof.Gen.Kernel.Skeleton
import proofs.«127116_j86620900426032_2_alg».proof.Proof.Gen.Kernel.Launch
import proofs.«127116_j86620900426032_2_alg».proof.Proof.Gen.Kernel.Points
import proofs.«127116_j86620900426032_2_alg».proof.Proof.Gen.Kernel.Frame
import proofs.«127116_j86620900426032_2_alg».proof.Proof.Gen.KernelIdeal
import proofs.«127116_j86620900426032_2_alg».proof.Proof.Gen.KernelIdeal.Skeleton
import proofs.«127116_j86620900426032_2_alg».proof.Proof.Gen.KernelIdeal.Launch
import proofs.«127116_j86620900426032_2_alg».proof.Proof.Gen.KernelIdeal.Points
import proofs.«127116_j86620900426032_2_alg».proof.Proof.Gen.KernelIdeal.Frame
import proofs.«127116_j86620900426032_2_alg».proof.Proof.Gen.ReferenceIdeal
import proofs.«127116_j86620900426032_2_alg».proof.Proof.Gen.Pre_finite_inputs
import proofs.«127116_j86620900426032_2_alg».proof.Proof.Gen.ReferenceIdeal.Run
import proofs.«127116_j86620900426032_2_alg».proof.Proof.Gen.ReferenceIdeal.Read
import proofs.«127116_j86620900426032_2_alg».proof.Proof.KFinal
import proofs.«127116_j86620900426032_2_alg».proof.Proof.RefValue
import Idealize.ShloMosaic.Adequacy
import Idealize.ShloMosaic.Init

noncomputable section

namespace Cert.Proof

open Idealize.ShloMosaic Idealize.SL.Sem

/-! ## The shared host operations are the same terms in the two programs -/

/-- The reference's gather of the source rows is the kernel program's. -/
theorem gather_row (x0 : (⟨Cert.ReferenceIdeal.S50000x128, .f32⟩ : BufTy).Contents (Elt Ideal))
    (x1 : (⟨Cert.ReferenceIdeal.S2x600000, .i32⟩ : BufTy).Contents (Elt Ideal)) :
    Cert.ReferenceIdeal.Read.val_main_v10 (F := Ideal) x0 x1
      = Cert.KernelIdeal.Hand.gatherRows x0 (Cert.KernelIdeal.Hand.rowIdx x1) := rfl

/-- The reference's gather of the target rows is the kernel program's. -/
theorem gather_col (x0 : (⟨Cert.ReferenceIdeal.S50000x128, .f32⟩ : BufTy).Contents (Elt Ideal))
    (x1 : (⟨Cert.ReferenceIdeal.S2x600000, .i32⟩ : BufTy).Contents (Elt Ideal)) :
    Cert.ReferenceIdeal.Read.val_main_v17 (F := Ideal) x0 x1
      = Cert.KernelIdeal.Hand.gatherRows x0 (Cert.KernelIdeal.Hand.colIdx x1) := rfl

/-- The reference's aggregate is the kernel program's scatter-add of the specification's edge features. -/
theorem aggregate (x0 : (⟨Cert.ReferenceIdeal.S50000x128, .f32⟩ : BufTy).Contents (Elt Ideal))
    (x1 : (⟨Cert.ReferenceIdeal.S2x600000, .i32⟩ : BufTy).Contents (Elt Ideal))
    (x2 : (⟨Cert.ReferenceIdeal.S600000x1, .f32⟩ : BufTy).Contents (Elt Ideal))
    (x3 : (⟨Cert.ReferenceIdeal.S256x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal)) :
    Cert.ReferenceIdeal.Read.val_main_v33 (F := Ideal) x0 x1 x2 x3 x4 x5 x6
      = Cert.KernelIdeal.Hand.aggRows x1 (Cert.Mlp.EdgeR
          (Cert.KernelIdeal.Hand.gatherRows x0 (Cert.KernelIdeal.Hand.rowIdx x1))
          (Cert.KernelIdeal.Hand.gatherRows x0 (Cert.KernelIdeal.Hand.colIdx x1)) x2 x3 x4 x5 x6) := by
  unfold Cert.ReferenceIdeal.Read.val_main_v33
  rw [Cert.ReferenceIdeal.Hand.edge_ref, gather_row, gather_col]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's node output and edge
    features of those arguments. -/
theorem algebraic : Cert.algebraic_KernelIdeal_ReferenceIdeal := by
  intro m ρ m' ρ' _ hagree
  refine ⟨fun c => Cert.KernelIdeal.Hand.nodeOutArr m c, fun c => Cert.KernelIdeal.Hand.edgeFeat m c,
    Cert.KernelIdeal.Hand.run_spec m ρ, ?_⟩
  refine (θ_run Cert.ReferenceIdeal.defs _ _).mono (fun _ h c => ?_) (Cert.ReferenceIdeal.Hand.run_spec m' ρ')
  obtain ⟨e0, e1, e2, e3, e4, e5, e6, e7, e8, e9, e10⟩ := hagree c
  refine ⟨(h c).1.trans ?_, (h c).2.1.trans ?_, (h c).2.2⟩
  · rw [aggregate, e0, e1, e2, e3, e4, e5, e6, e7, e8, e9, e10]
  · rw [gather_row, gather_col, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
